-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S64x32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x64 .f32) (main_arg4 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S2000x128 : Shape := ⟨2, ![2000, 128]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S10000x32 : Shape := ⟨2, ![10000, 32]⟩
abbrev S400x32 : Shape := ⟨2, ![400, 32]⟩
abbrev S32x10000 : Shape := ⟨2, ![32, 10000]⟩

abbrev nBuf : Space → Nat
  | .hbm => 13
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64x32, .f32⟩
  | .hbm, ⟨5, _⟩ => ⟨S10000x128, .bf16⟩
  | .hbm, ⟨6, _⟩ => ⟨S10000x10000, .bf16⟩
  | .hbm, ⟨7, _⟩ => ⟨S10000x64, .bf16⟩
  | .hbm, ⟨8, _⟩ => ⟨S10000x32, .bf16⟩
  | .hbm, ⟨9, _⟩ => ⟨S10000x32, .f32⟩
  | .hbm, ⟨10, _⟩ => ⟨S32x10000, .f32⟩
  | .hbm, ⟨11, _⟩ => ⟨S32x10000, .bf16⟩
  | .hbm, ⟨12, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S128x64, .f32⟩
  | .local _ .vmem, ⟨9, _⟩ => ⟨S400x10000, .bf16⟩
  | .local _ .vmem, ⟨10, _⟩ => ⟨S400x10000, .bf16⟩
  | .local _ .vmem, ⟨11, _⟩ => ⟨S400x64, .bf16⟩
  | .local _ .vmem, ⟨12, _⟩ => ⟨S400x64, .bf16⟩
  | .local _ .vmem, ⟨13, _⟩ => ⟨S400x10000, .bf16⟩
  | .local _ .vmem, ⟨14, _⟩ => ⟨S400x10000, .bf16⟩
  | .local _ .vmem, ⟨15, _⟩ => ⟨S10000x64, .bf16⟩
  | .local _ .vmem, ⟨16, _⟩ => ⟨S64x32, .f32⟩
  | .local _ .vmem, ⟨17, _⟩ => ⟨S400x32, .bf16⟩
  | .local _ .vmem, ⟨18, _⟩ => ⟨S400x32, .bf16⟩
  | .local _ .vmem, ⟨19, _⟩ => ⟨S400x10000, .bf16⟩
  | .local _ .vmem, ⟨20, _⟩ => ⟨S400x10000, .bf16⟩
  | .local _ .vmem, ⟨21, _⟩ => ⟨S10000x32, .bf16⟩
  | .local _ .vmem, ⟨22, _⟩ => ⟨S400x32, .f32⟩
  | .local _ .vmem, ⟨23, _⟩ => ⟨S400x32, .f32⟩
  | .local _ .vmem, ⟨24, _⟩ => ⟨S400x32, .f32⟩
  | .local _ .vmem, ⟨25, _⟩ => ⟨S400x32, .f32⟩
  | .local _ .vmem, ⟨26, _⟩ => ⟨S32x10000, .bf16⟩
  | .local _ .vmem, ⟨27, _⟩ => ⟨S400x10000, .f32⟩
  | .local _ .vmem, ⟨28, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x10000 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S2000x128_S2000x128_0_0 : (Rect.unit (s := S2000x128) ![0, 0] S2000x128.size inb_S2000x128_S2000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  shapeCasts_S400x10000_S400x10000 : S400x10000.ShapeCasts S400x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  transposes_S10000x32_S32x10000_1_0 : S10000x32.Transposes [1, 0] S32x10000
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  dot_S400x64_S64x32_S400x32_1_0_0_1_n_n_wf : DotDims.WF S400x64 S64x32 S400x32 [1] [0] [0] [1] [] []
  dot_S400x10000_S10000x32_S400x32_1_0_0_1_n_n_wf : DotDims.WF S400x10000 S10000x32 S400x32 [1] [0] [0] [1] [] []
  dot_S400x32_S32x10000_S400x10000_1_0_0_1_n_n_wf : DotDims.WF S400x32 S32x10000 S400x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .bf16 = 32 ∨ (Rect.block (s := S10000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .bf16 = 32 ∨ (Rect.block (s := S10000x64) S400x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .bf16 = 32 ∨ (Rect.block (s := S10000x32) S400x32.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .f32 = 32 ∨ (Rect.block (s := S10000x32) S400x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x32.size a ≤ S10000x32.size a
  hwx4_0 : ∀ i : grid4.Coords, EltTy.bits .f32 = 32 ∨ (Rect.block (s := S10000x32) S400x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x10000.size a ≤ S32x10000.size a
  hwx4_1 : ∀ i : grid4.Coords, EltTy.bits .bf16 = 32 ∨ (Rect.block (s := S32x10000) S32x10000.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S400x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S32x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v6) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S64x32 : Shape := ⟨2, ![64, 32]⟩
abbrev S10000x64 : Shape := ⟨2, ![10000, 64]⟩
abbrev S10000x32 : Shape := ⟨2, ![10000, 32]⟩
abbrev S32x10000 : Shape := ⟨2, ![32, 10000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S64x32, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x32, .f32⟩
  | .hbm, ⟨12, _⟩ => ⟨S10000x32, .f32⟩
  | .hbm, ⟨13, _⟩ => ⟨S32x10000, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S10000x32_S32x10000_1_0 : S10000x32.Transposes [1, 0] S32x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.KernelRun.lean ====
/-
  The kernel program's run with every buffer that outlives the regions named in its post, not only the arguments.
-/
import proofs.«121399_g4002909520352_cont_8to1_b_696_8_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that outlives the
    regions ends at the contents the last segment boundary names: the same launch over the same segments as the
    frame, with the whole last boundary kept in the post instead of only the argument arrays. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Whole

end
-- ==== Proof.LibPlainDot.lean ====
/-
  A plain matrix product read at an index.  For dimension numbers that contract the left operand's second axis with
  the right operand's first and have no batch axes, the contraction  sum over k of l[(i, k)] * r[(k, j)]  ranges over
  the contraction shape's indices; that shape has one axis of extent K, so the sum is one over k < K.  The four
  coordinate facts (which coordinate of the output index or of the contraction index each operand index carries)
  are hypotheses: for a printed record each is decided by unfolding the record.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M,K] x [K,N] product at output index i is the sum over k < K of
    l (i 0, k) * r (k, i 1). -/
theorem sum_plain {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (c : Fin N) :
    ∑ k : d.contr.Idx, l (d.lhsIdx (ix2 p c) k) * r (d.rhsIdx (ix2 p c) k) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Spec.lean ====
/-
  The encoder's mathematics on the extended reals, index by index.  A matrix is a function of a rank-2 index.
  The product of an [M,K] and a [K,N] matrix at (r, c) is the sum over k < K of a(r,k) * b(k,c); tanh and the
  logistic function act entry by entry; the transpose swaps the two coordinates.  The encoder is

    s1 = tanh (x W1),   s2 = tanh ((A s1) W2),   z3 = (A s2) W3,   z = A z3,   out = logistic (z zᵀ).

  Also here: the product of a row block of a with b is the same block of the product (a block row r of the block
  starting at row o is row o + r of the matrix), stated for a function that agrees with the block on every entry.
-/
import proofs.«121399_g4002909520352_cont_8to1_b_696_8_alg».proof.Proof.LibPlainDot
import Idealize.ShloMosaic.Lib.Pipeline.Value

noncomputable section

namespace Cert.Spec

open Idealize.ShloMosaic Idealize.ShloMosaic.ValueIdx

/-- An [M,N] matrix of extended reals. -/
abbrev Mat (M N : Nat) := (⟨2, ![M, N]⟩ : Shape).Idx → EReal

/-- The matrix product: entry (r, c) is the sum over k of a(r,k) * b(k,c). -/
def mm {M K N : Nat} (a : Mat M K) (b : Mat K N) : Mat M N :=
  fun i => ∑ k : Fin K, a (ix2 (i 0) k) * b (ix2 k (i 1))

/-- tanh of every entry. -/
def tanhM {M N : Nat} (a : Mat M N) : Mat M N := fun i => Ideal.tanh (a i)

/-- The logistic function 1 / (1 + e^(-x)) of every entry. -/
def sigM {M N : Nat} (a : Mat M N) : Mat M N := fun i => Ideal.logistic (a i)

/-- The transpose. -/
def tr {M N : Nat} (a : Mat M N) : Mat N M := fun i => a (ix2 (i 1) (i 0))

theorem mm_apply {M K N : Nat} (a : Mat M K) (b : Mat K N) (r : Fin M) (c : Fin N) :
    mm a b (ix2 r c) = ∑ k : Fin K, a (ix2 r k) * b (ix2 k c) := rfl

theorem tr_apply {M N : Nat} (a : Mat M N) (r : Fin N) (c : Fin M) : tr a (ix2 r c) = a (ix2 c r) := rfl

/-- First layer: tanh (x W1). -/
def s1 (x : Mat 10000 128) (w1 : Mat 128 128) : Mat 10000 128 := tanhM (mm x w1)
/-- Second layer: tanh ((A s) W2). -/
def s2 (adj : Mat 10000 10000) (s : Mat 10000 128) (w2 : Mat 128 64) : Mat 10000 64 := tanhM (mm (mm adj s) w2)
/-- Third layer before the last aggregation: (A s) W3. -/
def z3 (adj : Mat 10000 10000) (s : Mat 10000 64) (w3 : Mat 64 32) : Mat 10000 32 := mm (mm adj s) w3
/-- The embedding: A z3. -/
def zi (adj : Mat 10000 10000) (z : Mat 10000 32) : Mat 10000 32 := mm adj z
/-- The decoded adjacency: logistic (z zᵀ). -/
def gram (z : Mat 10000 32) : Mat 10000 10000 := sigM (mm z (tr z))

/-- The encoder: the embedding A ((A tanh ((A tanh (x W1)) W2)) W3). -/
def encode (x : Mat 10000 128) (adj : Mat 10000 10000) (w1 : Mat 128 128) (w2 : Mat 128 64) (w3 : Mat 64 32) : Mat 10000 32 :=
  zi adj (z3 adj (s2 adj (s1 x w1) w2) w3)

/-- A layout transpose of a matrix is the transpose. -/
theorem transpose_eq_tr {M N : Nat} (z : Mat M N)
    (h : (⟨2, ![M, N]⟩ : Shape).Transposes [1, 0] (⟨2, ![N, M]⟩ : Shape)) :
    transpose (⟨2, ![N, M]⟩ : Shape) [1, 0] z h = tr z := by
  funext j
  obtain ⟨a, b, rfl⟩ : ∃ (a : Fin N) (b : Fin M), j = ix2 a b := ⟨j 0, j 1, eq_ix2 j⟩
  exact transpose_apply [1, 0] z h (ix2 a b) (ix2 b a) (fun d => match d with
    | ⟨0, _⟩ => rfl
    | ⟨1, _⟩ => rfl)

/-- The word 0x3F800000 is the number one. -/
theorem one_bits : Ideal.ofBits .f32 0x3F800000#32 = 1 := by
  simp [Ideal.ofBits, Ideal.ieee, -EReal.coe_mul]; norm_num

/-- The expansion 1 / (1 + e^(-x)) with the literal one written as its word is the logistic function. -/
theorem logistic_expansion (x : EReal) :
    Ideal.div (Ideal.ofBits .f32 0x3F800000#32) (Ideal.ofBits .f32 0x3F800000#32 + Ideal.exp (-x)) = Ideal.logistic x := by
  rw [one_bits]; rfl

theorem s1_apply (x : Mat 10000 128) (w1 : Mat 128 128) (r : Fin 10000) (q : Fin 128) :
    s1 x w1 (ix2 r q) = Ideal.tanh (∑ k : Fin 128, x (ix2 r k) * w1 (ix2 k q)) := rfl
theorem s2_apply (adj : Mat 10000 10000) (s : Mat 10000 128) (w2 : Mat 128 64) (r : Fin 10000) (q : Fin 64) :
    s2 adj s w2 (ix2 r q) = Ideal.tanh (∑ j : Fin 128, (∑ k : Fin 10000, adj (ix2 r k) * s (ix2 k j)) * w2 (ix2 j q)) := rfl
theorem z3_apply (adj : Mat 10000 10000) (s : Mat 10000 64) (w3 : Mat 64 32) (r : Fin 10000) (q : Fin 32) :
    z3 adj s w3 (ix2 r q) = ∑ j : Fin 64, (∑ k : Fin 10000, adj (ix2 r k) * s (ix2 k j)) * w3 (ix2 j q) := rfl
theorem zi_apply (adj : Mat 10000 10000) (z : Mat 10000 32) (r : Fin 10000) (q : Fin 32) :
    zi adj z (ix2 r q) = ∑ k : Fin 10000, adj (ix2 r k) * z (ix2 k q) := rfl
theorem sig_mm_apply {M K N : Nat} (a : Mat M K) (b : Mat K N) (r : Fin M) (q : Fin N) :
    sigM (mm a b) (ix2 r q) = Ideal.logistic (∑ k : Fin K, a (ix2 r k) * b (ix2 k q)) := rfl

end Cert.Spec

end
-- ==== Proof.Layer1.lean ====
/-
  The first region: s1 = tanh (x W1), in five blocks of 2000 rows.
  At grid point t the body reads rows 2000 t .. 2000 t + 1999 of x and the whole of W1, and stores, at (p, q) of its
  block, tanh of the sum over k < 128 of x(2000 t + p, k) * W1(k, q): entry (2000 t + p, q) of tanh (x W1).  The blocks
  tile the rows (row r lies in block r / 2000), so once every block is written back the array is tanh (x W1).
-/
import proofs.«121399_g4002909520352_cont_8to1_b_696_8_alg».proof.Proof.Gen.KernelIdeal.Frame
import proofs.«121399_g4002909520352_cont_8to1_b_696_8_alg».proof.Proof.Spec
import Idealize.ShloMosaic.Lib.Pipeline.Value

set_option maxRecDepth 16384

noncomputable section

namespace Cert.KernelIdeal.Layer1

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) of the block: tanh of the sum over k of x(p,k) * w(k,q). -/
theorem pay_apply (x0 : Vec Ideal S2000x128 .f32) (x1 : Vec Ideal S128x128 .f32) (p : Fin 2000) (q : Fin 128) :
    k0_pay1 (F := Ideal) x0 x1 (ix2 p q) = Ideal.tanh (∑ k : Fin 128, x0 (ix2 p k) * x1 (ix2 k q)) := by
  unfold k0_pay1
  show Ideal.tanh (FloatOps.matmul (F := Ideal) dot_S2000x128_S128x128_S2000x128_1_0_0_1_n_n (some .fp32) x0 x1 (constant (F := Ideal) S2000x128 .f32 0x00000000#32) (ix2 p q)) = _
  rw [Ideal.matmul_constant_zero_apply]
  refine congrArg Ideal.tanh (Cert.LibPlainDot.sum_plain dot_S2000x128_S128x128_S2000x128_1_0_0_1_n_n rfl rfl ?_ ?_ ?_ ?_ x0 x1 p q)
  · intro i q; unfold DotDims.lhsIdx; rw [dif_neg, dif_pos]; rfl; all_goals decide
  · intro i q; exact dot_S2000x128_S128x128_S2000x128_1_0_0_1_n_n.lhsIdx_val_of_single rfl i q
  · intro i q; exact dot_S2000x128_S128x128_S2000x128_1_0_0_1_n_n.rhsIdx_val_of_single rfl i q
  · intro i q; unfold DotDims.rhsIdx; rw [dif_neg, dif_pos]; rfl; all_goals decide

/-- The block indices over the grid: the x window and the output window are at block row t, column block 0; the
    weight window is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 2000 t + p of the array. -/
def row (t : Fin cfg0.N) (p : Fin 2000) : Fin 10000 := ⟨t.val * 2000 + p.val, by
  have ht : t.val < 5 := lt_of_lt_of_eq t.isLt N_0
  have hp := p.isLt; omega⟩

theorem emb_out (t : Fin cfg0.N) (p : Fin 2000) (q : Fin 128) :
    ((cfg0.win 2).blk t).view.emb (ix2 p q) = ix2 (row t p) q := by
  obtain ⟨e0, e1, e2, e3, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 128 + 1 * q.val = q.val; omega

theorem blk_x (c : Dev nD) (t : Fin cfg0.N) (p : Fin 2000) (k : Fin 128) :
    iblk0 V c 0 t (ix2 p k) = V c main_arg0 (ix2 (row t p) k) := by
  obtain ⟨e0, e1, e2, e3, e4, e5⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

theorem blk_w (c : Dev nD) (t : Fin cfg0.N) (k : Fin 128) (q : Fin 128) :
    iblk0 V c 1 t (ix2 k q) = V c main_arg2 (ix2 k q) := by
  obtain ⟨e0, e1, e2, e3, e4, e5⟩ := idx_facts t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of tanh (x W1). -/
theorem flushed_eq (c : Dev nD) (t : Fin cfg0.N) :
    (dat0 V c).flushed 2 t = ((cfg0.win 2).blk t).view.read (Elt Ideal) (s1 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  refine (pay_apply _ _ p q).trans ?_
  show _ = s1 (V c main_arg0) (V c main_arg2) (((cfg0.win 2).blk t).view.emb (ix2 p q))
  rw [emb_out]
  exact congrArg Ideal.tanh (Finset.sum_congr rfl fun k _ => by rw [blk_x, blk_w])

/-- An index is in point t's block iff its row is in the block's row range. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The blocks cover the array: row r is in block r / 2000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  let t : Fin cfg0.N := ⟨(i 0).val / 2000, lt_of_lt_of_eq (by omega) N_0.symm⟩
  obtain ⟨e0, e1, e2, e3, e4, e5⟩ := idx_facts t
  refine ⟨t, flush0_2 t, ?_⟩
  rw [mem_blk]
  intro a
  have htv : t.val = (i 0).val / 2000 := rfl
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The first layer's array after its region: tanh (x W1) of the arrays the region found. -/
theorem final (c : Dev nD) : (dat0 V c).arrAt 2 cfg0.N = s1 (V c main_arg0) (V c main_arg2) :=
  (dat0 V c).arrAt_eq_of_cover 2 _ (fun t _ => flushed_eq V c t) cover

end Cert.KernelIdeal.Layer1
end
-- ==== Proof.Layer2.lean ====
/-
  The second region, in twenty-five blocks of 400 rows: a copy of A, and s2 = tanh ((A s1) W2).
  At grid point t the body reads rows 400 t .. 400 t + 399 of A, the whole of s1 and of W2.  Its first store is the
  block of A itself (narrowing an entry's format is the identity on the extended reals).  Its second store, at (p, q),
  is tanh of the sum over j < 128 of (the sum over k < 10000 of A(400 t + p, k) * s1(k, j)) * W2(j, q): entry
  (400 t + p, q) of tanh ((A s1) W2).  The blocks tile the rows (row r lies in block r / 400).
-/
import proofs.«121399_g4002909520352_cont_8to1_b_696_8_alg».proof.Proof.Gen.KernelIdeal.Frame
import proofs.«121399_g4002909520352_cont_8to1_b_696_8_alg».proof.Proof.Spec
import Idealize.ShloMosaic.Lib.Pipeline.Value

set_option maxRecDepth 16384

noncomputable section

namespace Cert.KernelIdeal.Layer2

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: a row-blocked window is at block row t, column block 0; a whole-matrix window
    stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of block t is row 400 t + p of the array. -/
def row (t : Fin cfg1.N) (p : Fin 400) : Fin 10000 := ⟨t.val * 400 + p.val, by
  have ht : t.val < 25 := lt_of_lt_of_eq t.isLt N_1
  have hp := p.isLt; omega⟩

/-- Entry (p, k) of window 0's block at point t is entry (400 t + p, k) of its array. -/
theorem blk_adj (c : Dev nD) (t : Fin cfg1.N) (p : Fin 400) (k : Fin 10000) :
    ((cfg1.win 0).blk t).view.read (Elt Ideal) (V c main_arg1) (ix2 p k) = V c main_arg1 (ix2 (row t p) k) := by
  obtain ⟨e0_0, e0_1, e1_0, e1_1, e2_0, e2_1, e3_0, e3_1, e4_0, e4_1⟩ := idx_facts t
  show V c main_arg1 (((cfg1.win 0).blk t).view.emb (ix2 p k)) = V c main_arg1 (ix2 (row t p) k)
  refine congrArg (V c main_arg1) (funext fun a => Fin.ext ?_)
  match a with
  | ⟨0, _⟩ => show win1_0.index t (0 : Fin 2) * 400 + 1 * p.val = t.val * 400 + p.val; omega
  | ⟨1, _⟩ => show win1_0.index t (1 : Fin 2) * 10000 + 1 * k.val = k.val; omega

/-- Window 1's block at every point is its whole array. -/
theorem blk_s (c : Dev nD) (t : Fin cfg1.N) (a : Fin 10000) (b : Fin 128) :
    ((cfg1.win 1).blk t).view.read (Elt Ideal) (V c main_v0) (ix2 a b) = V c main_v0 (ix2 a b) := by
  obtain ⟨e0_0, e0_1, e1_0, e1_1, e2_0, e2_1, e3_0, e3_1, e4_0, e4_1⟩ := idx_facts t
  show V c main_v0 (((cfg1.win 1).blk t).view.emb (ix2 a b)) = V c main_v0 (ix2 a b)
  refine congrArg (V c main_v0) (funext fun d => Fin.ext ?_)
  match d with
  | ⟨0, _⟩ => show win1_1.index t (0 : Fin 2) * 10000 + 1 * a.val = a.val; omega
  | ⟨1, _⟩ => show win1_1.index t (1 : Fin 2) * 128 + 1 * b.val = b.val; omega

/-- Window 2's block at every point is its whole array. -/
theorem blk_w (c : Dev nD) (t : Fin cfg1.N) (a : Fin 128) (b : Fin 64) :
    ((cfg1.win 2).blk t).view.read (Elt Ideal) (V c main_arg3) (ix2 a b) = V c main_arg3 (ix2 a b) := by
  obtain ⟨e0_0, e0_1, e1_0, e1_1, e2_0, e2_1, e3_0, e3_1, e4_0, e4_1⟩ := idx_facts t
  show V c main_arg3 (((cfg1.win 2).blk t).view.emb (ix2 a b)) = V c main_arg3 (ix2 a b)
  refine congrArg (V c main_arg3) (funext fun d => Fin.ext ?_)
  match d with
  | ⟨0, _⟩ => show win1_2.index t (0 : Fin 2) * 128 + 1 * a.val = a.val; omega
  | ⟨1, _⟩ => show win1_2.index t (1 : Fin 2) * 64 + 1 * b.val = b.val; omega

/-- Entry (p, k) of window 3's block at point t is entry (400 t + p, k) of its array. -/
theorem blk_copy (c : Dev nD) (t : Fin cfg1.N) (p : Fin 400) (k : Fin 10000) :
    ((cfg1.win 3).blk t).view.read (Elt Ideal) (V c main_v1_0) (ix2 p k) = V c main_v1_0 (ix2 (row t p) k) := by
  obtain ⟨e0_0, e0_1, e1_0, e1_1, e2_0, e2_1, e3_0, e3_1, e4_0, e4_1⟩ := idx_facts t
  show V c main_v1_0 (((cfg1.win 3).blk t).view.emb (ix2 p k)) = V c main_v1_0 (ix2 (row t p) k)
  refine congrArg (V c main_v1_0) (funext fun a => Fin.ext ?_)
  match a with
  | ⟨0, _⟩ => show win1_3.index t (0 : Fin 2) * 400 + 1 * p.val = t.val * 400 + p.val; omega
  | ⟨1, _⟩ => show win1_3.index t (1 : Fin 2) * 10000 + 1 * k.val = k.val; omega

/-- Entry (p, q) of output window 3's block at point t sits at (400 t + p, q) of its array. -/
theorem emb_copy (t : Fin cfg1.N) (p : Fin 400) (q : Fin 10000) :
    ((cfg1.win 3).blk t).view.emb (ix2 p q) = ix2 (row t p) q := by
  obtain ⟨e0_0, e0_1, e1_0, e1_1, e2_0, e2_1, e3_0, e3_1, e4_0, e4_1⟩ := idx_facts t
  funext a; apply Fin.ext
  match a with
  | ⟨0, _⟩ => show win1_3.index t (0 : Fin 2) * 400 + 1 * p.val = t.val * 400 + p.val; omega
  | ⟨1, _⟩ => show win1_3.index t (1 : Fin 2) * 10000 + 1 * q.val = q.val; omega

/-- An index is in point t's block of window 3 iff each coordinate is in the block's range on its axis. -/
theorem mem_copy (t : Fin cfg1.N) (i : S10000x10000.Idx) :
    i ∈ ((cfg1.win 3).blk t).view.set ↔ ∀ a : Fin 2, win1_3.index t a * S400x10000.size a ≤ (i a).val ∧ (i a).val < win1_3.index t a * S400x10000.size a + S400x10000.size a := by
  show i ∈ ((View.whole main_v1_0).slice (win1_3.rect t)).set ↔ _
  rw [View.set_slice_whole, Rect.mem_set_unit]
  exact Iff.rfl

/-- Window 3's blocks cover its array: row r is in block r / 400. -/
theorem cover_copy (i : S10000x10000.Idx) : ∃ t : Fin cfg1.N, (cfg1.win 3).flush t = true ∧ i ∈ ((cfg1.win 3).blk t).view.set := by
  have hi0 : (i 0).val < 10000 := (i 0).isLt
  have hi1 : (i 1).val < 10000 := (i 1).isLt
  let t : Fin cfg1.N := ⟨(i 0).val / 400, lt_of_lt_of_eq (by omega) N_1.symm⟩
  obtain ⟨e0_0, e0_1, e1_0, e1_1, e2_0, e2_1, e3_0, e3_1, e4_0, e4_1⟩ := idx_facts t
  refine ⟨t, flush1_3 t, ?_⟩
  rw [mem_copy]
  intro a
  have htv : t.val = (i 0).val / 400 := rfl
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 10000 ≤ (i 1).val ∧ (i 1).val < win1_3.index t (1 : Fin 2) * 10000 + 10000; omega

/-- Entry (p, k) of window 4's block at point t is entry (400 t + p, k) of its array. -/
theorem blk_out (c : Dev nD) (t : Fin cfg1.N) (p : Fin 400) (k : Fin 64) :
    ((cfg1.win 4).blk t).view.read (Elt Ideal) (V c main_v1_1) (ix2 p k) = V c main_v1_1 (ix2 (row t p) k) := by
  obtain ⟨e0_0, e0_1, e1_0, e1_1, e2_0, e2_1, e3_0, e3_1, e4_0, e4_1⟩ := idx_facts t
  show V c main_v1_1 (((cfg1.win 4).blk t).view.emb (ix2 p k)) = V c main_v1_1 (ix2 (row t p) k)
  refine congrArg (V c main_v1_1) (funext fun a => Fin.ext ?_)
  match a with
  | ⟨0, _⟩ => show win1_4.index t (0 : Fin 2) * 400 + 1 * p.val = t.val * 400 + p.val; omega
  | ⟨1, _⟩ => show win1_4.index t (1 : Fin 2) * 64 + 1 * k.val = k.val; omega

/-- Entry (p, q) of output window 4's block at point t sits at (400 t + p, q) of its array. -/
theorem emb_out (t : Fin cfg1.N) (p : Fin 400) (q : Fin 64) :
    ((cfg1.win 4).blk t).view.emb (ix2 p q) = ix2 (row t p) q := by
  obtain ⟨e0_0, e0_1, e1_0, e1_1, e2_0, e2_1, e3_0, e3_1, e4_0, e4_1⟩ := idx_facts t
  funext a; apply Fin.ext
  match a with
  | ⟨0, _⟩ => show win1_4.index t (0 : Fin 2) * 400 + 1 * p.val = t.val * 400 + p.val; omega
  | ⟨1, _⟩ => show win1_4.index t (1 : Fin 2) * 64 + 1 * q.val = q.val; omega

/-- An index is in point t's block of window 4 iff each coordinate is in the block's range on its axis. -/
theorem mem_out (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v1_1).slice (win1_4.rect t)).set ↔ _
  rw [View.set_slice_whole, Rect.mem_set_unit]
  exact Iff.rfl

/-- Window 4's blocks cover its array: row r is in block r / 400. -/
theorem cover_out (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  let t : Fin cfg1.N := ⟨(i 0).val / 400, lt_of_lt_of_eq (by omega) N_1.symm⟩
  obtain ⟨e0_0, e0_1, e1_0, e1_1, e2_0, e2_1, e3_0, e3_1, e4_0, e4_1⟩ := idx_facts t
  refine ⟨t, flush1_4 t, ?_⟩
  rw [mem_out]
  intro a
  have htv : t.val = (i 0).val / 400 := rfl
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- The body's second stored value at (p, q) of the block: tanh of the sum over j of
    (the sum over k of a(p,k) * s(k,j)) * w(j,q). -/
theorem pay_apply (x0 : Vec Ideal S400x10000 .f32) (x1 : Vec Ideal S10000x128 .bf16) (x2 : Vec Ideal S128x64 .f32) (p : Fin 400) (q : Fin 64) :
    k1_pay2 (F := Ideal) x0 x1 x2 (ix2 p q) = Ideal.tanh (∑ j : Fin 128, (∑ k : Fin 10000, x0 (ix2 p k) * x1 (ix2 k j)) * x2 (ix2 j q)) := by
  unfold k1_pay2 k1_pay1
  show Ideal.tanh (FloatOps.matmul (F := Ideal) (φ₁ := .f32) (φ₂ := .f32) dot_S400x128_S128x64_S400x64_1_0_0_1_n_n (some .fp32)
      (FloatOps.matmul (F := Ideal) (φ₁ := .bf16) (φ₂ := .bf16) dot_S400x10000_S10000x128_S400x128_1_0_0_1_n_n none x0 (shapeCast S10000x128 x1 shapeCasts_S10000x128_S10000x128) (constant (F := Ideal) S400x128 .f32 0x00000000#32))
      x2 (constant (F := Ideal) S400x64 .f32 0x00000000#32) (ix2 p q)) = _
  rw [Ideal.matmul_constant_zero_apply, shapeCast_self]
  refine congrArg Ideal.tanh ((Cert.LibPlainDot.sum_plain dot_S400x128_S128x64_S400x64_1_0_0_1_n_n rfl rfl ?_ ?_ ?_ ?_ _ x2 p q).trans ?_)
  · intro i q; unfold DotDims.lhsIdx; rw [dif_neg, dif_pos]; rfl; all_goals decide
  · intro i q; exact dot_S400x128_S128x64_S400x64_1_0_0_1_n_n.lhsIdx_val_of_single rfl i q
  · intro i q; exact dot_S400x128_S128x64_S400x64_1_0_0_1_n_n.rhsIdx_val_of_single rfl i q
  · intro i q; unfold DotDims.rhsIdx; rw [dif_neg, dif_pos]; rfl; all_goals decide
  refine Finset.sum_congr rfl fun j _ => congrArg (· * x2 (ix2 j q)) ?_
  rw [Ideal.matmul_constant_zero_apply]
  refine Cert.LibPlainDot.sum_plain dot_S400x10000_S10000x128_S400x128_1_0_0_1_n_n rfl rfl ?_ ?_ ?_ ?_ x0 x1 p j
  · intro i q; unfold DotDims.lhsIdx; rw [dif_neg, dif_pos]; rfl; all_goals decide
  · intro i q; exact dot_S400x10000_S10000x128_S400x128_1_0_0_1_n_n.lhsIdx_val_of_single rfl i q
  · intro i q; exact dot_S400x10000_S10000x128_S400x128_1_0_0_1_n_n.rhsIdx_val_of_single rfl i q
  · intro i q; unfold DotDims.rhsIdx; rw [dif_neg, dif_pos]; rfl; all_goals decide

/-- What point t writes back through window 3 is block t of the adjacency matrix itself (the re-emitted copy). -/
theorem flushed_copy (c : Dev nD) (t : Fin cfg1.N) :
    (dat1 V c).flushed 3 t = ((cfg1.win 3).blk t).view.read (Elt Ideal) (V c main_arg1 : Mat 10000 10000) := by
  show (cfg1.win 3).cut (grid1.coords t) ((dat1 V c).after 3 t) = _
  rw [after1_3]
  unfold out1_3
  rw [View.canon_unit_zero hz]
  simp only [View.ld_unit_zero (S := S400x10000) hz]
  funext j
  obtain ⟨p, q, rfl⟩ : ∃ (p : Fin 400) (q : Fin 10000), j = ix2 p q := ⟨j 0, j 1, eq_ix2 j⟩
  show ((cfg1.win 0).blk t).view.read (Elt Ideal) (V c main_arg1) (ix2 p q) = V c main_arg1 (((cfg1.win 3).blk t).view.emb (ix2 p q))
  rw [emb_copy, blk_adj]

/-- What point t writes back through window 4 is block t of tanh ((A s) W2). -/
theorem flushed_out (c : Dev nD) (t : Fin cfg1.N) :
    (dat1 V c).flushed 4 t = ((cfg1.win 4).blk t).view.read (Elt Ideal) (s2 (V c main_arg1) (V c main_v0) (V c main_arg3)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S128x64) hz]
  funext j
  obtain ⟨p, q, rfl⟩ : ∃ (p : Fin 400) (q : Fin 64), j = ix2 p q := ⟨j 0, j 1, eq_ix2 j⟩
  refine (pay_apply _ _ _ p q).trans ?_
  show _ = s2 (V c main_arg1) (V c main_v0) (V c main_arg3) (((cfg1.win 4).blk t).view.emb (ix2 p q))
  rw [emb_out]
  refine congrArg Ideal.tanh (Finset.sum_congr rfl fun j _ => ?_)
  refine congrArg₂ (· * ·) (Finset.sum_congr rfl fun k _ => ?_) (blk_w V c t j q)
  exact congrArg₂ (· * ·) (blk_adj V c t p k) (blk_s V c t k j)

/-- The copy's array after the region is the adjacency matrix the region found. -/
theorem final_copy (c : Dev nD) : (dat1 V c).arrAt 3 cfg1.N = (V c main_arg1 : Mat 10000 10000) :=
  (dat1 V c).arrAt_eq_of_cover 3 _ (fun t _ => flushed_copy V c t) cover_copy

/-- The second layer's array after the region: tanh ((A s) W2) of the arrays the region found. -/
theorem final_out (c : Dev nD) : (dat1 V c).arrAt 4 cfg1.N = s2 (V c main_arg1) (V c main_v0) (V c main_arg3) :=
  (dat1 V c).arrAt_eq_of_cover 4 _ (fun t _ => flushed_out V c t) cover_out

end Cert.KernelIdeal.Layer2
end
-- ==== Proof.Layer3.lean ====
/-
  The third region, in twenty-five blocks of 400 rows: z3 = (A s2) W3.
  At grid point t the body stores, at (p, q) of its block, the sum over j < 64 of
  (the sum over k < 10000 of A(400 t + p, k) * s2(k, j)) * W3(j, q): entry (400 t + p, q) of (A s2) W3.
-/
import proofs.«121399_g4002909520352_cont_8to1_b_696_8_alg».proof.Proof.Gen.KernelIdeal.Frame
import proofs.«121399_g4002909520352_cont_8to1_b_696_8_alg».proof.Proof.Spec
import Idealize.ShloMosaic.Lib.Pipeline.Value

set_option maxRecDepth 16384

noncomputable section

namespace Cert.KernelIdeal.Layer3

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: a row-blocked window is at block row t, column block 0; a whole-matrix window
    stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of block t is row 400 t + p of the array. -/
def row (t : Fin cfg2.N) (p : Fin 400) : Fin 10000 := ⟨t.val * 400 + p.val, by
  have ht : t.val < 25 := lt_of_lt_of_eq t.isLt N_2
  have hp := p.isLt; omega⟩

/-- Entry (p, k) of window 0's block at point t is entry (400 t + p, k) of its array. -/
theorem blk_adj (c : Dev nD) (t : Fin cfg2.N) (p : Fin 400) (k : Fin 10000) :
    ((cfg2.win 0).blk t).view.read (Elt Ideal) (V c main_v1_0) (ix2 p k) = V c main_v1_0 (ix2 (row t p) k) := by
  obtain ⟨e0_0, e0_1, e1_0, e1_1, e2_0, e2_1, e3_0, e3_1⟩ := idx_facts t
  show V c main_v1_0 (((cfg2.win 0).blk t).view.emb (ix2 p k)) = V c main_v1_0 (ix2 (row t p) k)
  refine congrArg (V c main_v1_0) (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * k.val = k.val; omega

/-- Window 1's block at every point is its whole array. -/
theorem blk_s (c : Dev nD) (t : Fin cfg2.N) (a : Fin 10000) (b : Fin 64) :
    ((cfg2.win 1).blk t).view.read (Elt Ideal) (V c main_v1_1) (ix2 a b) = V c main_v1_1 (ix2 a b) := by
  obtain ⟨e0_0, e0_1, e1_0, e1_1, e2_0, e2_1, e3_0, e3_1⟩ := idx_facts t
  show V c main_v1_1 (((cfg2.win 1).blk t).view.emb (ix2 a b)) = V c main_v1_1 (ix2 a b)
  refine congrArg (V c main_v1_1) (funext fun d => Fin.ext ?_)
  match d with
  | ⟨0, _⟩ => show win2_1.index t (0 : Fin 2) * 10000 + 1 * a.val = a.val; omega
  | ⟨1, _⟩ => show win2_1.index t (1 : Fin 2) * 64 + 1 * b.val = b.val; omega

/-- Window 2's block at every point is its whole array. -/
theorem blk_w (c : Dev nD) (t : Fin cfg2.N) (a : Fin 64) (b : Fin 32) :
    ((cfg2.win 2).blk t).view.read (Elt Ideal) (V c main_arg4) (ix2 a b) = V c main_arg4 (ix2 a b) := by
  obtain ⟨e0_0, e0_1, e1_0, e1_1, e2_0, e2_1, e3_0, e3_1⟩ := idx_facts t
  show V c main_arg4 (((cfg2.win 2).blk t).view.emb (ix2 a b)) = V c main_arg4 (ix2 a b)
  refine congrArg (V c main_arg4) (funext fun d => Fin.ext ?_)
  match d with
  | ⟨0, _⟩ => show win2_2.index t (0 : Fin 2) * 64 + 1 * a.val = a.val; omega
  | ⟨1, _⟩ => show win2_2.index t (1 : Fin 2) * 32 + 1 * b.val = b.val; omega

/-- Entry (p, k) of window 3's block at point t is entry (400 t + p, k) of its array. -/
theorem blk_out (c : Dev nD) (t : Fin cfg2.N) (p : Fin 400) (k : Fin 32) :
    ((cfg2.win 3).blk t).view.read (Elt Ideal) (V c main_v2) (ix2 p k) = V c main_v2 (ix2 (row t p) k) := by
  obtain ⟨e0_0, e0_1, e1_0, e1_1, e2_0, e2_1, e3_0, e3_1⟩ := idx_facts t
  show V c main_v2 (((cfg2.win 3).blk t).view.emb (ix2 p k)) = V c main_v2 (ix2 (row t p) k)
  refine congrArg (V c main_v2) (funext fun a => Fin.ext ?_)
  match a with
  | ⟨0, _⟩ => show win2_3.index t (0 : Fin 2) * 400 + 1 * p.val = t.val * 400 + p.val; omega
  | ⟨1, _⟩ => show win2_3.index t (1 : Fin 2) * 32 + 1 * k.val = k.val; omega

/-- Entry (p, q) of output window 3's block at point t sits at (400 t + p, q) of its array. -/
theorem emb_out (t : Fin cfg2.N) (p : Fin 400) (q : Fin 32) :
    ((cfg2.win 3).blk t).view.emb (ix2 p q) = ix2 (row t p) q := by
  obtain ⟨e0_0, e0_1, e1_0, e1_1, e2_0, e2_1, e3_0, e3_1⟩ := idx_facts t
  funext a; apply Fin.ext
  match a with
  | ⟨0, _⟩ => show win2_3.index t (0 : Fin 2) * 400 + 1 * p.val = t.val * 400 + p.val; omega
  | ⟨1, _⟩ => show win2_3.index t (1 : Fin 2) * 32 + 1 * q.val = q.val; omega

/-- An index is in point t's block of window 3 iff each coordinate is in the block's range on its axis. -/
theorem mem_out (t : Fin cfg2.N) (i : S10000x32.Idx) :
    i ∈ ((cfg2.win 3).blk t).view.set ↔ ∀ a : Fin 2, win2_3.index t a * S400x32.size a ≤ (i a).val ∧ (i a).val < win2_3.index t a * S400x32.size a + S400x32.size a := by
  show i ∈ ((View.whole main_v2).slice (win2_3.rect t)).set ↔ _
  rw [View.set_slice_whole, Rect.mem_set_unit]
  exact Iff.rfl

/-- Window 3's blocks cover its array: row r is in block r / 400. -/
theorem cover_out (i : S10000x32.Idx) : ∃ t : Fin cfg2.N, (cfg2.win 3).flush t = true ∧ i ∈ ((cfg2.win 3).blk t).view.set := by
  have hi0 : (i 0).val < 10000 := (i 0).isLt
  have hi1 : (i 1).val < 32 := (i 1).isLt
  let t : Fin cfg2.N := ⟨(i 0).val / 400, lt_of_lt_of_eq (by omega) N_2.symm⟩
  obtain ⟨e0_0, e0_1, e1_0, e1_1, e2_0, e2_1, e3_0, e3_1⟩ := idx_facts t
  refine ⟨t, flush2_3 t, ?_⟩
  rw [mem_out]
  intro a
  have htv : t.val = (i 0).val / 400 := rfl
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 32 ≤ (i 1).val ∧ (i 1).val < win2_3.index t (1 : Fin 2) * 32 + 32; omega

/-- The body's stored value at (p, q) of the block: the sum over j of (the sum over k of a(p,k) * s(k,j)) * w(j,q). -/
theorem pay_apply (x0 : Vec Ideal S400x10000 .bf16) (x1 : Vec Ideal S10000x64 .bf16) (x2 : Vec Ideal S64x32 .f32) (p : Fin 400) (q : Fin 32) :
    k2_pay1 (F := Ideal) x0 x1 x2 (ix2 p q) = ∑ j : Fin 64, (∑ k : Fin 10000, x0 (ix2 p k) * x1 (ix2 k j)) * x2 (ix2 j q) := by
  unfold k2_pay1
  show FloatOps.matmul (F := Ideal) (φ₁ := .f32) (φ₂ := .f32) dot_S400x64_S64x32_S400x32_1_0_0_1_n_n (some .fp32)
      (FloatOps.matmul (F := Ideal) (φ₁ := .bf16) (φ₂ := .bf16) dot_S400x10000_S10000x64_S400x64_1_0_0_1_n_n none (shapeCast S400x10000 x0 shapeCasts_S400x10000_S400x10000) (shapeCast S10000x64 x1 shapeCasts_S10000x64_S10000x64) (constant (F := Ideal) S400x64 .f32 0x00000000#32))
      x2 (constant (F := Ideal) S400x32 .f32 0x00000000#32) (ix2 p q) = _
  rw [Ideal.matmul_constant_zero_apply, shapeCast_self, shapeCast_self]
  refine (Cert.LibPlainDot.sum_plain dot_S400x64_S64x32_S400x32_1_0_0_1_n_n rfl rfl ?_ ?_ ?_ ?_ _ x2 p q).trans ?_
  · intro i q; unfold DotDims.lhsIdx; rw [dif_neg, dif_pos]; rfl; all_goals decide
  · intro i q; exact dot_S400x64_S64x32_S400x32_1_0_0_1_n_n.lhsIdx_val_of_single rfl i q
  · intro i q; exact dot_S400x64_S64x32_S400x32_1_0_0_1_n_n.rhsIdx_val_of_single rfl i q
  · intro i q; unfold DotDims.rhsIdx; rw [dif_neg, dif_pos]; rfl; all_goals decide
  refine Finset.sum_congr rfl fun j _ => congrArg (· * x2 (ix2 j q)) ?_
  rw [Ideal.matmul_constant_zero_apply]
  refine Cert.LibPlainDot.sum_plain dot_S400x10000_S10000x64_S400x64_1_0_0_1_n_n rfl rfl ?_ ?_ ?_ ?_ x0 x1 p j
  · intro i q; unfold DotDims.lhsIdx; rw [dif_neg, dif_pos]; rfl; all_goals decide
  · intro i q; exact dot_S400x10000_S10000x64_S400x64_1_0_0_1_n_n.lhsIdx_val_of_single rfl i q
  · intro i q; exact dot_S400x10000_S10000x64_S400x64_1_0_0_1_n_n.rhsIdx_val_of_single rfl i q
  · intro i q; unfold DotDims.rhsIdx; rw [dif_neg, dif_pos]; rfl; all_goals decide

/-- What point t writes back is block t of (A s) W3. -/
theorem flushed_out (c : Dev nD) (t : Fin cfg2.N) :
    (dat2 V c).flushed 3 t = ((cfg2.win 3).blk t).view.read (Elt Ideal) (z3 (V c main_v1_0) (V c main_v1_1) (V c main_arg4)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz, View.ld_unit_zero (S := S64x32) hz]
  funext j
  obtain ⟨p, q, rfl⟩ : ∃ (p : Fin 400) (q : Fin 32), j = ix2 p q := ⟨j 0, j 1, eq_ix2 j⟩
  refine (pay_apply _ _ _ p q).trans ?_
  show _ = z3 (V c main_v1_0) (V c main_v1_1) (V c main_arg4) (((cfg2.win 3).blk t).view.emb (ix2 p q))
  rw [emb_out, z3_apply]
  refine Finset.sum_congr rfl fun j _ => ?_
  refine congrArg₂ (· * ·) (Finset.sum_congr rfl fun k _ => ?_) (blk_w V c t j q)
  exact congrArg₂ (· * ·) (blk_adj V c t p k) (blk_s V c t k j)

/-- The array after the region: (A s) W3 of the arrays the region found. -/
theorem final_out (c : Dev nD) : (dat2 V c).arrAt 3 cfg2.N = z3 (V c main_v1_0) (V c main_v1_1) (V c main_arg4) :=
  (dat2 V c).arrAt_eq_of_cover 3 _ (fun t _ => flushed_out V c t) cover_out

end Cert.KernelIdeal.Layer3
end
-- ==== Proof.Layer4.lean ====
/-
  The fourth region, in twenty-five blocks of 400 rows: the embedding z = A z3.
  At grid point t the body stores, at (p, q) of its block, the sum over k < 10000 of A(400 t + p, k) * z3(k, q).
-/
import proofs.«121399_g4002909520352_cont_8to1_b_696_8_alg».proof.Proof.Gen.KernelIdeal.Frame
import proofs.«121399_g4002909520352_cont_8to1_b_696_8_alg».proof.Proof.Spec
import Idealize.ShloMosaic.Lib.Pipeline.Value

set_option maxRecDepth 16384

noncomputable section

namespace Cert.KernelIdeal.Layer4

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: a row-blocked window is at block row t, column block 0; a whole-matrix window
    stays at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row 400 t + p of the array. -/
def row (t : Fin cfg3.N) (p : Fin 400) : Fin 10000 := ⟨t.val * 400 + p.val, by
  have ht : t.val < 25 := lt_of_lt_of_eq t.isLt N_3
  have hp := p.isLt; omega⟩

/-- Entry (p, k) of window 0's block at point t is entry (400 t + p, k) of its array. -/
theorem blk_adj (c : Dev nD) (t : Fin cfg3.N) (p : Fin 400) (k : Fin 10000) :
    ((cfg3.win 0).blk t).view.read (Elt Ideal) (V c main_v1_0) (ix2 p k) = V c main_v1_0 (ix2 (row t p) k) := by
  obtain ⟨e0_0, e0_1, e1_0, e1_1, e2_0, e2_1⟩ := idx_facts t
  show V c main_v1_0 (((cfg3.win 0).blk t).view.emb (ix2 p k)) = V c main_v1_0 (ix2 (row t p) k)
  refine congrArg (V c main_v1_0) (funext fun a => Fin.ext ?_)
  match a with
  | ⟨0, _⟩ => show win3_0.index t (0 : Fin 2) * 400 + 1 * p.val = t.val * 400 + p.val; omega
  | ⟨1, _⟩ => show win3_0.index t (1 : Fin 2) * 10000 + 1 * k.val = k.val; omega

/-- Window 1's block at every point is its whole array. -/
theorem blk_s (c : Dev nD) (t : Fin cfg3.N) (a : Fin 10000) (b : Fin 32) :
    ((cfg3.win 1).blk t).view.read (Elt Ideal) (V c main_v2) (ix2 a b) = V c main_v2 (ix2 a b) := by
  obtain ⟨e0_0, e0_1, e1_0, e1_1, e2_0, e2_1⟩ := idx_facts t
  show V c main_v2 (((cfg3.win 1).blk t).view.emb (ix2 a b)) = V c main_v2 (ix2 a b)
  refine congrArg (V c main_v2) (funext fun d => Fin.ext ?_)
  match d with
  | ⟨0, _⟩ => show win3_1.index t (0 : Fin 2) * 10000 + 1 * a.val = a.val; omega
  | ⟨1, _⟩ => show win3_1.index t (1 : Fin 2) * 32 + 1 * b.val = b.val; omega

/-- Entry (p, k) of window 2's block at point t is entry (400 t + p, k) of its array. -/
theorem blk_out (c : Dev nD) (t : Fin cfg3.N) (p : Fin 400) (k : Fin 32) :
    ((cfg3.win 2).blk t).view.read (Elt Ideal) (V c main_v3) (ix2 p k) = V c main_v3 (ix2 (row t p) k) := by
  obtain ⟨e0_0, e0_1, e1_0, e1_1, e2_0, e2_1⟩ := idx_facts t
  show V c main_v3 (((cfg3.win 2).blk t).view.emb (ix2 p k)) = V c main_v3 (ix2 (row t p) k)
  refine congrArg (V c main_v3) (funext fun a => Fin.ext ?_)
  match a with
  | ⟨0, _⟩ => show win3_2.index t (0 : Fin 2) * 400 + 1 * p.val = t.val * 400 + p.val; omega
  | ⟨1, _⟩ => show win3_2.index t (1 : Fin 2) * 32 + 1 * k.val = k.val; omega

/-- Entry (p, q) of output window 2's block at point t sits at (400 t + p, q) of its array. -/
theorem emb_out (t : Fin cfg3.N) (p : Fin 400) (q : Fin 32) :
    ((cfg3.win 2).blk t).view.emb (ix2 p q) = ix2 (row t p) q := by
  obtain ⟨e0_0, e0_1, e1_0, e1_1, e2_0, e2_1⟩ := idx_facts t
  funext a; apply Fin.ext
  match a with
  | ⟨0, _⟩ => show win3_2.index t (0 : Fin 2) * 400 + 1 * p.val = t.val * 400 + p.val; omega
  | ⟨1, _⟩ => show win3_2.index t (1 : Fin 2) * 32 + 1 * q.val = q.val; omega

/-- An index is in point t's block of window 2 iff each coordinate is in the block's range on its axis. -/
theorem mem_out (t : Fin cfg3.N) (i : S10000x32.Idx) :
    i ∈ ((cfg3.win 2).blk t).view.set ↔ ∀ a : Fin 2, win3_2.index t a * S400x32.size a ≤ (i a).val ∧ (i a).val < win3_2.index t a * S400x32.size a + S400x32.size a := by
  show i ∈ ((View.whole main_v3).slice (win3_2.rect t)).set ↔ _
  rw [View.set_slice_whole, Rect.mem_set_unit]
  exact Iff.rfl

/-- Window 2's blocks cover its array: row r is in block r / 400. -/
theorem cover_out (i : S10000x32.Idx) : ∃ t : Fin cfg3.N, (cfg3.win 2).flush t = true ∧ i ∈ ((cfg3.win 2).blk t).view.set := by
  have hi0 : (i 0).val < 10000 := (i 0).isLt
  have hi1 : (i 1).val < 32 := (i 1).isLt
  let t : Fin cfg3.N := ⟨(i 0).val / 400, lt_of_lt_of_eq (by omega) N_3.symm⟩
  obtain ⟨e0_0, e0_1, e1_0, e1_1, e2_0, e2_1⟩ := idx_facts t
  refine ⟨t, flush3_2 t, ?_⟩
  rw [mem_out]
  intro a
  have htv : t.val = (i 0).val / 400 := rfl
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 32 ≤ (i 1).val ∧ (i 1).val < win3_2.index t (1 : Fin 2) * 32 + 32; omega

/-- The body's stored value at (p, q) of the block: the sum over k of a(p,k) * z(k,q). -/
theorem pay_apply (x0 : Vec Ideal S400x10000 .bf16) (x1 : Vec Ideal S10000x32 .bf16) (p : Fin 400) (q : Fin 32) :
    k3_pay1 (F := Ideal) x0 x1 (ix2 p q) = ∑ k : Fin 10000, x0 (ix2 p k) * x1 (ix2 k q) := by
  unfold k3_pay1
  show FloatOps.matmul (F := Ideal) (φ₁ := .bf16) (φ₂ := .bf16) dot_S400x10000_S10000x32_S400x32_1_0_0_1_n_n none (shapeCast S400x10000 x0 shapeCasts_S400x10000_S400x10000) (shapeCast S10000x32 x1 shapeCasts_S10000x32_S10000x32) (constant (F := Ideal) S400x32 .f32 0x00000000#32) (ix2 p q) = _
  rw [Ideal.matmul_constant_zero_apply, shapeCast_self, shapeCast_self]
  refine Cert.LibPlainDot.sum_plain dot_S400x10000_S10000x32_S400x32_1_0_0_1_n_n rfl rfl ?_ ?_ ?_ ?_ x0 x1 p q
  · intro i q; unfold DotDims.lhsIdx; rw [dif_neg, dif_pos]; rfl; all_goals decide
  · intro i q; exact dot_S400x10000_S10000x32_S400x32_1_0_0_1_n_n.lhsIdx_val_of_single rfl i q
  · intro i q; exact dot_S400x10000_S10000x32_S400x32_1_0_0_1_n_n.rhsIdx_val_of_single rfl i q
  · intro i q; unfold DotDims.rhsIdx; rw [dif_neg, dif_pos]; rfl; all_goals decide

/-- What point t writes back is block t of A z. -/
theorem flushed_out (c : Dev nD) (t : Fin cfg3.N) :
    (dat3 V c).flushed 2 t = ((cfg3.win 2).blk t).view.read (Elt Ideal) (zi (V c main_v1_0) (V c main_v2)) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x32) hz]
  funext j
  obtain ⟨p, q, rfl⟩ : ∃ (p : Fin 400) (q : Fin 32), j = ix2 p q := ⟨j 0, j 1, eq_ix2 j⟩
  refine (pay_apply _ _ p q).trans ?_
  show _ = zi (V c main_v1_0) (V c main_v2) (((cfg3.win 2).blk t).view.emb (ix2 p q))
  rw [emb_out, zi_apply]
  refine Finset.sum_congr rfl fun k _ => ?_
  exact congrArg₂ (· * ·) (blk_adj V c t p k) (blk_s V c t k q)

/-- The embedding's array after the region: A z of the arrays the region found. -/
theorem final_out (c : Dev nD) : (dat3 V c).arrAt 2 cfg3.N = zi (V c main_v1_0) (V c main_v2) :=
  (dat3 V c).arrAt_eq_of_cover 2 _ (fun t _ => flushed_out V c t) cover_out

end Cert.KernelIdeal.Layer4
end
-- ==== Proof.Decoder.lean ====
/-
  The last region, in twenty-five blocks of 400 rows: logistic (z zt), for the two arrays z [10000,32] and zt [32,10000]
  it finds.  At grid point t the body stores, at (p, q) of its block, the logistic function of the sum over k < 32 of
  z(400 t + p, k) * zt(k, q).
-/
import proofs.«121399_g4002909520352_cont_8to1_b_696_8_alg».proof.Proof.Gen.KernelIdeal.Frame
import proofs.«121399_g4002909520352_cont_8to1_b_696_8_alg».proof.Proof.Spec
import Idealize.ShloMosaic.Lib.Pipeline.Value

set_option maxRecDepth 16384

noncomputable section

namespace Cert.KernelIdeal.Decoder

open Cert.KernelIdeal Cert.KernelIdeal.Gen Idealize.ShloMosaic Idealize.ShloMosaic.ValueIdx Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: a row-blocked window is at block row t, column block 0; a whole-matrix window
    stays at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of block t is row 400 t + p of the array. -/
def row (t : Fin cfg4.N) (p : Fin 400) : Fin 10000 := ⟨t.val * 400 + p.val, by
  have ht : t.val < 25 := lt_of_lt_of_eq t.isLt N_4
  have hp := p.isLt; omega⟩

/-- Entry (p, k) of window 0's block at point t is entry (400 t + p, k) of its array. -/
theorem blk_z (c : Dev nD) (t : Fin cfg4.N) (p : Fin 400) (k : Fin 32) :
    ((cfg4.win 0).blk t).view.read (Elt Ideal) (V c main_v3) (ix2 p k) = V c main_v3 (ix2 (row t p) k) := by
  obtain ⟨e0_0, e0_1, e1_0, e1_1, e2_0, e2_1⟩ := idx_facts t
  show V c main_v3 (((cfg4.win 0).blk t).view.emb (ix2 p k)) = V c main_v3 (ix2 (row t p) k)
  refine congrArg (V c main_v3) (funext fun a => Fin.ext ?_)
  match a with
  | ⟨0, _⟩ => show win4_0.index t (0 : Fin 2) * 400 + 1 * p.val = t.val * 400 + p.val; omega
  | ⟨1, _⟩ => show win4_0.index t (1 : Fin 2) * 32 + 1 * k.val = k.val; omega

/-- Window 1's block at every point is its whole array. -/
theorem blk_zt (c : Dev nD) (t : Fin cfg4.N) (a : Fin 32) (b : Fin 10000) :
    ((cfg4.win 1).blk t).view.read (Elt Ideal) (V c main_v5) (ix2 a b) = V c main_v5 (ix2 a b) := by
  obtain ⟨e0_0, e0_1, e1_0, e1_1, e2_0, e2_1⟩ := idx_facts t
  show V c main_v5 (((cfg4.win 1).blk t).view.emb (ix2 a b)) = V c main_v5 (ix2 a b)
  refine congrArg (V c main_v5) (funext fun d => Fin.ext ?_)
  match d with
  | ⟨0, _⟩ => show win4_1.index t (0 : Fin 2) * 32 + 1 * a.val = a.val; omega
  | ⟨1, _⟩ => show win4_1.index t (1 : Fin 2) * 10000 + 1 * b.val = b.val; omega

/-- Entry (p, k) of window 2's block at point t is entry (400 t + p, k) of its array. -/
theorem blk_out (c : Dev nD) (t : Fin cfg4.N) (p : Fin 400) (k : Fin 10000) :
    ((cfg4.win 2).blk t).view.read (Elt Ideal) (V c main_v6) (ix2 p k) = V c main_v6 (ix2 (row t p) k) := by
  obtain ⟨e0_0, e0_1, e1_0, e1_1, e2_0, e2_1⟩ := idx_facts t
  show V c main_v6 (((cfg4.win 2).blk t).view.emb (ix2 p k)) = V c main_v6 (ix2 (row t p) k)
  refine congrArg (V c main_v6) (funext fun a => Fin.ext ?_)
  match a with
  | ⟨0, _⟩ => show win4_2.index t (0 : Fin 2) * 400 + 1 * p.val = t.val * 400 + p.val; omega
  | ⟨1, _⟩ => show win4_2.index t (1 : Fin 2) * 10000 + 1 * k.val = k.val; omega

/-- Entry (p, q) of output window 2's block at point t sits at (400 t + p, q) of its array. -/
theorem emb_out (t : Fin cfg4.N) (p : Fin 400) (q : Fin 10000) :
    ((cfg4.win 2).blk t).view.emb (ix2 p q) = ix2 (row t p) q := by
  obtain ⟨e0_0, e0_1, e1_0, e1_1, e2_0, e2_1⟩ := idx_facts t
  funext a; apply Fin.ext
  match a with
  | ⟨0, _⟩ => show win4_2.index t (0 : Fin 2) * 400 + 1 * p.val = t.val * 400 + p.val; omega
  | ⟨1, _⟩ => show win4_2.index t (1 : Fin 2) * 10000 + 1 * q.val = q.val; omega

/-- An index is in point t's block of window 2 iff each coordinate is in the block's range on its axis. -/
theorem mem_out (t : Fin cfg4.N) (i : S10000x10000.Idx) :
    i ∈ ((cfg4.win 2).blk t).view.set ↔ ∀ a : Fin 2, win4_2.index t a * S400x10000.size a ≤ (i a).val ∧ (i a).val < win4_2.index t a * S400x10000.size a + S400x10000.size a := by
  show i ∈ ((View.whole main_v6).slice (win4_2.rect t)).set ↔ _
  rw [View.set_slice_whole, Rect.mem_set_unit]
  exact Iff.rfl

/-- Window 2's blocks cover its array: row r is in block r / 400. -/
theorem cover_out (i : S10000x10000.Idx) : ∃ t : Fin cfg4.N, (cfg4.win 2).flush t = true ∧ i ∈ ((cfg4.win 2).blk t).view.set := by
  have hi0 : (i 0).val < 10000 := (i 0).isLt
  have hi1 : (i 1).val < 10000 := (i 1).isLt
  let t : Fin cfg4.N := ⟨(i 0).val / 400, lt_of_lt_of_eq (by omega) N_4.symm⟩
  obtain ⟨e0_0, e0_1, e1_0, e1_1, e2_0, e2_1⟩ := idx_facts t
  refine ⟨t, flush4_2 t, ?_⟩
  rw [mem_out]
  intro a
  have htv : t.val = (i 0).val / 400 := rfl
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 10000 ≤ (i 1).val ∧ (i 1).val < win4_2.index t (1 : Fin 2) * 10000 + 10000; omega

/-- The body's stored value at (p, q) of the block: the logistic function of the sum over k of z(p,k) * zt(k,q). -/
theorem pay_apply (x0 : Vec Ideal S400x32 .f32) (x1 : Vec Ideal S32x10000 .bf16) (p : Fin 400) (q : Fin 10000) :
    k4_pay1 (F := Ideal) x0 x1 (ix2 p q) = Ideal.logistic (∑ k : Fin 32, x0 (ix2 p k) * x1 (ix2 k q)) := by
  unfold k4_pay1
  show Ideal.logistic (FloatOps.matmul (F := Ideal) (φ₁ := .bf16) (φ₂ := .bf16) dot_S400x32_S32x10000_S400x10000_1_0_0_1_n_n none (shapeCast S400x32 x0 shapeCasts_S400x32_S400x32) (shapeCast S32x10000 x1 shapeCasts_S32x10000_S32x10000) (constant (F := Ideal) S400x10000 .f32 0x00000000#32) (ix2 p q)) = _
  rw [Ideal.matmul_constant_zero_apply, shapeCast_self, shapeCast_self]
  refine congrArg Ideal.logistic (Cert.LibPlainDot.sum_plain dot_S400x32_S32x10000_S400x10000_1_0_0_1_n_n rfl rfl ?_ ?_ ?_ ?_ x0 x1 p q)
  · intro i q; unfold DotDims.lhsIdx; rw [dif_neg, dif_pos]; rfl; all_goals decide
  · intro i q; exact dot_S400x32_S32x10000_S400x10000_1_0_0_1_n_n.lhsIdx_val_of_single rfl i q
  · intro i q; exact dot_S400x32_S32x10000_S400x10000_1_0_0_1_n_n.rhsIdx_val_of_single rfl i q
  · intro i q; unfold DotDims.rhsIdx; rw [dif_neg, dif_pos]; rfl; all_goals decide

/-- What point t writes back is block t of logistic (z zt), for the two arrays the region found. -/
theorem flushed_out (c : Dev nD) (t : Fin cfg4.N) :
    (dat4 V c).flushed 2 t = ((cfg4.win 2).blk t).view.read (Elt Ideal) (sigM (mm (V c main_v3 : Mat 10000 32) (V c main_v5 : Mat 32 10000))) := by
  show (cfg4.win 2).cut (grid4.coords t) ((dat4 V c).after 2 t) = _
  rw [after4_2]
  unfold out4_2
  rw [View.canon_unit_zero hz]
  simp only [View.ld_unit_zero (S := S400x32) hz, View.ld_unit_zero (S := S32x10000) hz]
  funext j
  obtain ⟨p, q, rfl⟩ : ∃ (p : Fin 400) (q : Fin 10000), j = ix2 p q := ⟨j 0, j 1, eq_ix2 j⟩
  refine (pay_apply _ _ p q).trans ?_
  show _ = sigM (mm (V c main_v3 : Mat 10000 32) (V c main_v5 : Mat 32 10000)) (((cfg4.win 2).blk t).view.emb (ix2 p q))
  rw [emb_out]
  refine congrArg Ideal.logistic (Finset.sum_congr rfl fun k _ => ?_)
  exact congrArg₂ (· * ·) (blk_z V c t p k) (blk_zt V c t k q)

/-- The decoded array after the region: logistic (z zt) of the arrays the region found. -/
theorem final_out (c : Dev nD) : (dat4 V c).arrAt 2 cfg4.N = sigM (mm (V c main_v3 : Mat 10000 32) (V c main_v5 : Mat 32 10000)) :=
  (dat4 V c).arrAt_eq_of_cover 2 _ (fun t _ => flushed_out V c t) cover_out

end Cert.KernelIdeal.Decoder
end
-- ==== Proof.Chain.lean ====
/-
  The kernel program's two results as functions of its five argument arrays, on the extended reals.

  The program is five row-blocked regions with one host stretch before the last.  Each region's output array, once
  its blocks are written back, is a whole-array function of the arrays the region found:
    region 1 leaves s1 = tanh (x W1);
    region 2 leaves a copy of A (the narrowing of the entries is the identity here) and s2 = tanh ((A s1) W2);
    region 3 leaves z3 = (A' s2) W3, A' the copy;   region 4 leaves z = A' z3;
    the host stretch writes the transpose of z beside it;   region 5 leaves logistic (z zᵀ).
  Reading each region's inputs back through the earlier boundaries (an array no later segment writes keeps its
  contents) gives z = the encoder's embedding of the arguments and the second result its decoded Gram matrix.
-/
import proofs.«121399_g4002909520352_cont_8to1_b_696_8_alg».proof.Proof.KernelRun
import proofs.«121399_g4002909520352_cont_8to1_b_696_8_alg».proof.Proof.Layer1
import proofs.«121399_g4002909520352_cont_8to1_b_696_8_alg».proof.Proof.Layer2
import proofs.«121399_g4002909520352_cont_8to1_b_696_8_alg».proof.Proof.Layer3
import proofs.«121399_g4002909520352_cont_8to1_b_696_8_alg».proof.Proof.Layer4
import proofs.«121399_g4002909520352_cont_8to1_b_696_8_alg».proof.Proof.Decoder
import Idealize.ShloMosaic.Lib.StableHlo.Run

set_option maxRecDepth 16384

noncomputable section

namespace Cert.KernelIdeal.Chain

open Cert.KernelIdeal Cert.KernelIdeal.Gen Idealize.ShloMosaic Idealize.ShloMosaic.ValueIdx Idealize.ShloMosaic.TcCoe Idealize.SL.Sem
open Idealize.ShloMosaic.StableHlo
open Idealize.ShloMosaic.Pipeline (Dat)
open Cert.Spec

variable (m : (ℓ : Loc nD τ sig) → Buf (Elt Ideal) ℓ) (ρ : Dev nD → PrngReg)

/-! ## The first region: s1 = tanh (x W1) -/

theorem V1_adj (c : Dev nD) : V1 m ρ c main_arg1 = m ((c : Thread nD τ).loc main_arg1) := W1_of_ne m ρ c main_arg1 (by decide)
theorem V1_w2 (c : Dev nD) : V1 m ρ c main_arg3 = m ((c : Thread nD τ).loc main_arg3) := W1_of_ne m ρ c main_arg3 (by decide)
theorem V1_w3 (c : Dev nD) : V1 m ρ c main_arg4 = m ((c : Thread nD τ).loc main_arg4) := W1_of_ne m ρ c main_arg4 (by decide)
theorem V1_s (c : Dev nD) : V1 m ρ c main_v0 = s1 (m ((c : Thread nD τ).loc main_arg0)) (m ((c : Thread nD τ).loc main_arg2)) :=
  (W1_arr m ρ c 2).trans (Layer1.final (V0 m ρ) c)

/-! ## The second region: the copy of A, and s2 = tanh ((A s1) W2) -/

theorem V2_adj (c : Dev nD) : V2 m ρ c main_v1_0 = (m ((c : Thread nD τ).loc main_arg1) : Mat 10000 10000) :=
  ((W2_arr m ρ c 3).trans (Layer2.final_copy (V1 m ρ) c)).trans (V1_adj m ρ c)
theorem V2_s (c : Dev nD) : V2 m ρ c main_v1_1 = s2 (m ((c : Thread nD τ).loc main_arg1))
    (s1 (m ((c : Thread nD τ).loc main_arg0)) (m ((c : Thread nD τ).loc main_arg2))) (m ((c : Thread nD τ).loc main_arg3)) :=
  ((W2_arr m ρ c 4).trans (Layer2.final_out (V1 m ρ) c)).trans (by rw [V1_adj, V1_s, V1_w2])
theorem V2_w3 (c : Dev nD) : V2 m ρ c main_arg4 = m ((c : Thread nD τ).loc main_arg4) :=
  (W2_of_ne m ρ c main_arg4 (by decide)).trans (V1_w3 m ρ c)

/-! ## The third region: z3 = (A s2) W3 -/

theorem V3_adj (c : Dev nD) : V3 m ρ c main_v1_0 = (m ((c : Thread nD τ).loc main_arg1) : Mat 10000 10000) :=
  ((W3_arr m ρ c 0).trans (((dat2 (V2 m ρ) c).arrAt_in 0 rfl _).trans (A_eq2 (V2 m ρ) c 0))).trans (V2_adj m ρ c)
theorem V3_z (c : Dev nD) : V3 m ρ c main_v2 = z3 (m ((c : Thread nD τ).loc main_arg1)) (s2 (m ((c : Thread nD τ).loc main_arg1)) (s1 (m ((c : Thread nD τ).loc main_arg0)) (m ((c : Thread nD τ).loc main_arg2))) (m ((c : Thread nD τ).loc main_arg3))) (m ((c : Thread nD τ).loc main_arg4)) :=
  ((W3_arr m ρ c 3).trans (Layer3.final_out (V2 m ρ) c)).trans (by rw [V2_adj, V2_s, V2_w3])

/-! ## The fourth region: the embedding A z3 -/

theorem V4_emb (c : Dev nD) : V4 m ρ c main_v3 = encode (m ((c : Thread nD τ).loc main_arg0)) (m ((c : Thread nD τ).loc main_arg1)) (m ((c : Thread nD τ).loc main_arg2)) (m ((c : Thread nD τ).loc main_arg3)) (m ((c : Thread nD τ).loc main_arg4)) :=
  ((W4_arr m ρ c 2).trans (Layer4.final_out (V3 m ρ) c)).trans (by rw [V3_adj, V3_z]; rfl)

/-! ## The host stretch: the embedding stays, and its transpose is written beside it -/

theorem V5_emb (c : Dev nD) : V5 m ρ c main_v3 = V4 m ρ c main_v3 := by
  show StableHlo.after hostOps4 (W4 m ρ c) (Proc.devRef .tc main_v3) = W4 m ρ c (Proc.devRef .tc main_v3)
  after_results

theorem V5_tr (c : Dev nD) : V5 m ρ c main_v5 = tr (V4 m ρ c main_v3 : Mat 10000 32) := by
  show StableHlo.after hostOps4 (W4 m ρ c) (Proc.devRef .tc main_v5) = _
  after_results
  exact transpose_eq_tr (V4 m ρ c main_v3 : Mat 10000 32) _

/-! ## The fifth region: logistic (z zᵀ) -/

theorem V6_dec (c : Dev nD) : V6 m ρ c main_v6 = gram (encode (m ((c : Thread nD τ).loc main_arg0)) (m ((c : Thread nD τ).loc main_arg1)) (m ((c : Thread nD τ).loc main_arg2)) (m ((c : Thread nD τ).loc main_arg3)) (m ((c : Thread nD τ).loc main_arg4))) :=
  ((W6_arr m ρ c 2).trans (Decoder.final_out (V5 m ρ) c)).trans (by rw [V5_tr, V5_emb, V4_emb]; rfl)
theorem V6_emb (c : Dev nD) : V6 m ρ c main_v3 = encode (m ((c : Thread nD τ).loc main_arg0)) (m ((c : Thread nD τ).loc main_arg1)) (m ((c : Thread nD τ).loc main_arg2)) (m ((c : Thread nD τ).loc main_arg3)) (m ((c : Thread nD τ).loc main_arg4)) :=
  ((W6_arr m ρ c 0).trans (((dat4 (V5 m ρ) c).arrAt_in 0 rfl _).trans (A_eq4 (V5 m ρ) c 0))).trans ((V5_emb m ρ c).trans (V4_emb m ρ c))

/-! ## The run -/

/-- Every weakly fair execution of the kernel program terminates without a fault with its first result at the
    encoder's embedding of the argument arrays, its second at the logistic function of the embedding's Gram matrix,
    and the argument arrays unchanged. -/
theorem run : θ_run defs (onTc (τ := τ) (main (F := Ideal))) ⟨m, fun _ => 0, ρ⟩ (fun r => ∀ c : Dev nD,
      r.2.mem ((c : Thread nD τ).loc main_v3) = encode (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v6) = gram (encode (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨(h c _ (mem_uc main_v3 (by decide))).trans (V6_emb m ρ c),
     (h c _ (mem_uc main_v6 (by decide))).trans (V6_dec m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c)⟩)
    (Whole.run_all m ρ)

end Cert.KernelIdeal.Chain

end
-- ==== Proof.RefValue.lean ====
/-
  The reference program's two results, as functions of its five arguments on the extended reals, are the encoder's
  embedding and the logistic function of its Gram matrix.  Each dot_general of the reference contracts the left
  operand's second axis with the right operand's first, so it is the matrix product; the host's tanh is tanh entry
  by entry; the layout transpose is the transpose; and the reference spells the logistic function as
  1 / (1 + e^(-x)), which is the same function of every extended real.
-/
import proofs.«121399_g4002909520352_cont_8to1_b_696_8_alg».proof.Proof.Gen.ReferenceIdeal.Read
import proofs.«121399_g4002909520352_cont_8to1_b_696_8_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem
open Cert.Spec

/-- The reference's dot_general writing %0 is the matrix product. -/
theorem dot0 (a : FVec Ideal S10000x128 .f32) (b : FVec Ideal S128x128 .f32) :
    Host.dotGeneral (F := Ideal) dot_S10000x128_S128x128_S10000x128_1_0_0_1_n_n none a b = mm a b := by
  funext i
  obtain ⟨p, q, rfl⟩ : ∃ (p : Fin 10000) (q : Fin 128), i = ix2 p q := ⟨i 0, i 1, eq_ix2 i⟩
  simp only [Host.dotGeneral]
  rw [Ideal.dotGeneral_apply]
  exact Cert.LibPlainDot.sum_plain dot_S10000x128_S128x128_S10000x128_1_0_0_1_n_n rfl rfl lhs_main_v0_0 lhs_main_v0_1 rhs_main_v0_0 rhs_main_v0_1 a b p q

/-- The reference's dot_general writing %2 is the matrix product. -/
theorem dot2 (a : FVec Ideal S10000x10000 .f32) (b : FVec Ideal S10000x128 .f32) :
    Host.dotGeneral (F := Ideal) dot_S10000x10000_S10000x128_S10000x128_1_0_0_1_n_n none a b = mm a b := by
  funext i
  obtain ⟨p, q, rfl⟩ : ∃ (p : Fin 10000) (q : Fin 128), i = ix2 p q := ⟨i 0, i 1, eq_ix2 i⟩
  simp only [Host.dotGeneral]
  rw [Ideal.dotGeneral_apply]
  exact Cert.LibPlainDot.sum_plain dot_S10000x10000_S10000x128_S10000x128_1_0_0_1_n_n rfl rfl lhs_main_v2_0 lhs_main_v2_1 rhs_main_v2_0 rhs_main_v2_1 a b p q

/-- The reference's dot_general writing %3 is the matrix product. -/
theorem dot3 (a : FVec Ideal S10000x128 .f32) (b : FVec Ideal S128x64 .f32) :
    Host.dotGeneral (F := Ideal) dot_S10000x128_S128x64_S10000x64_1_0_0_1_n_n none a b = mm a b := by
  funext i
  obtain ⟨p, q, rfl⟩ : ∃ (p : Fin 10000) (q : Fin 64), i = ix2 p q := ⟨i 0, i 1, eq_ix2 i⟩
  simp only [Host.dotGeneral]
  rw [Ideal.dotGeneral_apply]
  exact Cert.LibPlainDot.sum_plain dot_S10000x128_S128x64_S10000x64_1_0_0_1_n_n rfl rfl lhs_main_v3_0 lhs_main_v3_1 rhs_main_v3_0 rhs_main_v3_1 a b p q

/-- The reference's dot_general writing %5 is the matrix product. -/
theorem dot5 (a : FVec Ideal S10000x10000 .f32) (b : FVec Ideal S10000x64 .f32) :
    Host.dotGeneral (F := Ideal) dot_S10000x10000_S10000x64_S10000x64_1_0_0_1_n_n none a b = mm a b := by
  funext i
  obtain ⟨p, q, rfl⟩ : ∃ (p : Fin 10000) (q : Fin 64), i = ix2 p q := ⟨i 0, i 1, eq_ix2 i⟩
  simp only [Host.dotGeneral]
  rw [Ideal.dotGeneral_apply]
  exact Cert.LibPlainDot.sum_plain dot_S10000x10000_S10000x64_S10000x64_1_0_0_1_n_n rfl rfl lhs_main_v5_0 lhs_main_v5_1 rhs_main_v5_0 rhs_main_v5_1 a b p q

/-- The reference's dot_general writing %6 is the matrix product. -/
theorem dot6 (a : FVec Ideal S10000x64 .f32) (b : FVec Ideal S64x32 .f32) :
    Host.dotGeneral (F := Ideal) dot_S10000x64_S64x32_S10000x32_1_0_0_1_n_n none a b = mm a b := by
  funext i
  obtain ⟨p, q, rfl⟩ : ∃ (p : Fin 10000) (q : Fin 32), i = ix2 p q := ⟨i 0, i 1, eq_ix2 i⟩
  simp only [Host.dotGeneral]
  rw [Ideal.dotGeneral_apply]
  exact Cert.LibPlainDot.sum_plain dot_S10000x64_S64x32_S10000x32_1_0_0_1_n_n rfl rfl lhs_main_v6_0 lhs_main_v6_1 rhs_main_v6_0 rhs_main_v6_1 a b p q

/-- The reference's dot_general writing %7 is the matrix product. -/
theorem dot7 (a : FVec Ideal S10000x10000 .f32) (b : FVec Ideal S10000x32 .f32) :
    Host.dotGeneral (F := Ideal) dot_S10000x10000_S10000x32_S10000x32_1_0_0_1_n_n none a b = mm a b := by
  funext i
  obtain ⟨p, q, rfl⟩ : ∃ (p : Fin 10000) (q : Fin 32), i = ix2 p q := ⟨i 0, i 1, eq_ix2 i⟩
  simp only [Host.dotGeneral]
  rw [Ideal.dotGeneral_apply]
  exact Cert.LibPlainDot.sum_plain dot_S10000x10000_S10000x32_S10000x32_1_0_0_1_n_n rfl rfl lhs_main_v7_0 lhs_main_v7_1 rhs_main_v7_0 rhs_main_v7_1 a b p q

/-- The reference's dot_general writing %9 is the matrix product. -/
theorem dot9 (a : FVec Ideal S10000x32 .f32) (b : FVec Ideal S32x10000 .f32) :
    Host.dotGeneral (F := Ideal) dot_S10000x32_S32x10000_S10000x10000_1_0_0_1_n_n none a b = mm a b := by
  funext i
  obtain ⟨p, q, rfl⟩ : ∃ (p : Fin 10000) (q : Fin 10000), i = ix2 p q := ⟨i 0, i 1, eq_ix2 i⟩
  simp only [Host.dotGeneral]
  rw [Ideal.dotGeneral_apply]
  exact Cert.LibPlainDot.sum_plain dot_S10000x32_S32x10000_S10000x10000_1_0_0_1_n_n rfl rfl lhs_main_v9_0 lhs_main_v9_1 rhs_main_v9_0 rhs_main_v9_1 a b p q

/-- The reference's first result is the encoder's embedding. -/
theorem embedding_eq (x0 : FVec Ideal S10000x128 .f32) (x1 : FVec Ideal S10000x10000 .f32) (x2 : FVec Ideal S128x128 .f32)
    (x3 : FVec Ideal S128x64 .f32) (x4 : FVec Ideal S64x32 .f32) :
    val_main_v7 (F := Ideal) x0 x1 x2 x3 x4 = encode x0 x1 x2 x3 x4 := by
  unfold val_main_v7 val_main_v6 val_main_v5 val_main_v4 val_main_v3 val_main_v2 val_main_v1 val_main_v0
  rw [dot0, dot2, dot3, dot5, dot6, dot7]
  rfl

/-- The reference's second result is the logistic function of the embedding's Gram matrix. -/
theorem decoded_eq (x0 : FVec Ideal S10000x128 .f32) (x1 : FVec Ideal S10000x10000 .f32) (x2 : FVec Ideal S128x128 .f32)
    (x3 : FVec Ideal S128x64 .f32) (x4 : FVec Ideal S64x32 .f32) :
    val_main_v15 (F := Ideal) x0 x1 x2 x3 x4 = gram (encode x0 x1 x2 x3 x4) := by
  have h9 : val_main_v9 (F := Ideal) x0 x1 x2 x3 x4 = mm (encode x0 x1 x2 x3 x4) (tr (encode x0 x1 x2 x3 x4)) := by
    unfold val_main_v9 val_main_v8
    rw [dot9, embedding_eq, transpose_eq_tr]
  funext i
  rw [val_main_v15_apply, val_main_v14_apply, val_main_cst_0_apply, val_main_v13_apply, val_main_v12_apply, val_main_cst_apply,
    val_main_v11_apply, val_main_v10_apply, h9]
  exact logistic_expansion _

end Cert.ReferenceIdeal.RefValue

end
-- ==== Proof.lean ====
/-
  The certificate of a three-layer graph encoder with a logistic Gram decoder against its plain reference.

  Both programs compute, from a feature matrix x [10000,128], an adjacency matrix A [10000,10000] and weights
  W1 [128,128], W2 [128,64], W3 [64,32]:

      z   = A ((A tanh ((A tanh (x W1)) W2)) W3)        (the embedding, [10000,32])
      out = logistic (z zᵀ)                              ([10000,10000])

  with every product a sum over the contracted index of products of extended reals.  The kernel computes each
  layer in row blocks (a block of rows of A times the whole previous layer, then times the small weight matrix), keeps
  a narrowed copy of A for the later layers, transposes z on the host and applies the logistic function in its last
  region; the reference applies the same products to whole matrices and spells the logistic function as
  1 / (1 + e^(-x)).  The two sides are the same expression tree: a row block of a product is the product of the row
  block, changes of float format are the identity on the extended reals, and the logistic function is that quotient
  by definition.  No law of arithmetic beyond this is used, so finiteness of the inputs is not needed.

  Modules: Spec (the mathematics), Layer1 .. Layer4 and Decoder (each region's array after its run), KernelRun (the
  run with the last boundary's contents in its post), Chain (the regions composed), RefValue (the reference's two
  results).  The idealization rewrote nothing, so its conjunct is trivial.
-/
import proofs.«121399_g4002909520352_cont_8to1_b_696_8_alg».proof.Defs
import proofs.«121399_g4002909520352_cont_8to1_b_696_8_alg».proof.Proof.Gen.Kernel
import proofs.«121399_g4002909520352_cont_8to1_b_696_8_alg».proof.Proof.Gen.Kernel.Skeleton
import proofs.«121399_g4002909520352_cont_8to1_b_696_8_alg».proof.Proof.Gen.Kernel.Launch
import proofs.«121399_g4002909520352_cont_8to1_b_696_8_alg».proof.Proof.Gen.Kernel.Points
import proofs.«121399_g4002909520352_cont_8to1_b_696_8_alg».proof.Proof.Gen.Kernel.Frame
import proofs.«121399_g4002909520352_cont_8to1_b_696_8_alg».proof.Proof.Gen.KernelIdeal
import proofs.«121399_g4002909520352_cont_8to1_b_696_8_alg».proof.Proof.Gen.KernelIdeal.Skeleton
import proofs.«121399_g4002909520352_cont_8to1_b_696_8_alg».proof.Proof.Gen.KernelIdeal.Launch
import proofs.«121399_g4002909520352_cont_8to1_b_696_8_alg».proof.Proof.Gen.KernelIdeal.Points
import proofs.«121399_g4002909520352_cont_8to1_b_696_8_alg».proof.Proof.Gen.KernelIdeal.Frame
import proofs.«121399_g4002909520352_cont_8to1_b_696_8_alg».proof.Proof.Gen.ReferenceIdeal
import proofs.«121399_g4002909520352_cont_8to1_b_696_8_alg».proof.Proof.Gen.Pre_finite_inputs
import proofs.«121399_g4002909520352_cont_8to1_b_696_8_alg».proof.Proof.Gen.ReferenceIdeal.Run
import proofs.«121399_g4002909520352_cont_8to1_b_696_8_alg».proof.Proof.Gen.ReferenceIdeal.Read
import proofs.«121399_g4002909520352_cont_8to1_b_696_8_alg».proof.Proof.Chain
import proofs.«121399_g4002909520352_cont_8to1_b_696_8_alg».proof.Proof.RefValue
import Idealize.ShloMosaic.Adequacy
import Idealize.ShloMosaic.Init

noncomputable section

namespace Cert.Proof

open Idealize.ShloMosaic Idealize.ShloMosaic.TcCoe Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the embedding and its decoded Gram matrix of arguments that agree. -/
theorem algebraic : Cert.algebraic_KernelIdeal_ReferenceIdeal := by
  intro m ρ m' ρ' _ hagree
  refine ⟨_, _, Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v7_eq _ _ _ _ _).trans ((Cert.ReferenceIdeal.RefValue.embedding_eq _ _ _ _ _).trans ?_)
    rw [(hagree c).1, (hagree c).2.1, (hagree c).2.2.1, (hagree c).2.2.2.1, (hagree c).2.2.2.2]
  · refine (Cert.ReferenceIdeal.Read.val_main_v15_eq _ _ _ _ _).trans ((Cert.ReferenceIdeal.RefValue.decoded_eq _ _ _ _ _).trans ?_)
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
